-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S384x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x256 .f32 := Host.absf main_arg8
  let main_cst_10 : FVec F S_ .f32 := constant S_ .f32 0x7F800000#32
  let main_v30 : FVec F S384x256 .f32 := broadcastInDim S384x256 ![] bcast_S_S384x256 main_cst_10
  let main_v31 : IVec S384x256 1 := cmpf .olt main_v29 main_v30
  let main_c_11 : IVec S_ 1 := constantI S_ 1 1#1
  let main_v32 : IVec S_ 1 := (fun x v => Host.reduce IntOp.andi x v reducesTo_S384x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S600000x128 .f32) (main_arg2 : IVec S600000 32) (main_arg3 : IVec S600000 32) (main_arg4 : FVec F S384x256 .f32) (main_arg5 : FVec F S256 .f32) (main_arg6 : FVec F S256x128 .f32) (main_arg7 : FVec F S128 .f32) (main_arg8 : FVec F S384x256 .f32) (main_arg9 : FVec F S256 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S6000x128 : Shape := ⟨2, ![6000, 128]⟩
abbrev S6000x384 : Shape := ⟨2, ![6000, 384]⟩
abbrev S6000x256 : Shape := ⟨2, ![6000, 256]⟩
abbrev S1x256 : Shape := ⟨2, ![1, 256]⟩
abbrev S1x128 : Shape := ⟨2, ![1, 128]⟩
abbrev S5000x128 : Shape := ⟨2, ![5000, 128]⟩
abbrev S5000x384 : Shape := ⟨2, ![5000, 384]⟩
abbrev S5000x256 : Shape := ⟨2, ![5000, 256]⟩

abbrev nBuf : Space → Nat
  | .hbm => 40
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S384x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S384x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S6000x128, .f32⟩
  | .local _ .vmem, ⟨11, _⟩ => ⟨S6000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S384x256, .f32⟩
  | .local _ .vmem, ⟨19, _⟩ => ⟨S256, .f32⟩
  | .local _ .vmem, ⟨20, _⟩ => ⟨S256x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  concatenates_S6000x128_S6000x128_S6000x128_S6000x384_d1 : Shape.Concatenates [S6000x128, S6000x128, S6000x128] S6000x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S256_S256_0 : ∀ a, (![0] : Fin 1 → Nat) a + S256.size a ≤ S256.size a
  h_S256 : 0 < S256.numel
  shapeCasts_S256_S1x256 : S256.ShapeCasts S1x256
  broadcasts_S1x256_S6000x256 : S1x256.Broadcasts S6000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  broadcasts_S1x256_S5000x256 : S1x256.Broadcasts S5000x256
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S6000x384_S384x256_S6000x256_1_0_0_1_n_n_wf : DotDims.WF S6000x384 S384x256 S6000x256 [1] [0] [0] [1] [] []
  dot_S6000x256_S256x128_S6000x128_1_0_0_1_n_n_wf : DotDims.WF S6000x256 S256x128 S6000x128 [1] [0] [0] [1] [] []
  scatter_S50000x128_S600000x1_S600000x128_1_0_0_1_wf : ScatterDims.WF S50000x128 S600000x1 S600000x128 [1] [0] [0] 1
  dot_S5000x384_S384x256_S5000x256_1_0_0_1_n_n_wf : DotDims.WF S5000x384 S384x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x128.size a ≤ S600000x128.size a
  hwx0_7 : ∀ i : grid0.Coords, EltTy.bits .f32 = 32 ∨ (Rect.block (s := S600000x128) S6000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x256.size a ≤ S384x256.size a
  hwx1_3 : ∀ i : grid1.Coords, EltTy.bits .f32 = 32 ∨ (Rect.block (s := S384x256) S384x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x384_S384x256_S6000x256_1_0_0_1_n_n : DotDims S6000x384 S384x256 S6000x256 where
  lhsContracting := [1]
  rhsContracting := [0]
  lhsNonContracting := [0]
  rhsNonContracting := [1]
  lhsBatch := []
  rhsBatch := []
  wf := dot_S6000x384_S384x256_S6000x256_1_0_0_1_n_n_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x384_S384x256_S5000x256_1_0_0_1_n_n : DotDims S5000x384 S384x256 S5000x256 where
  lhsContracting := [1]
  rhsContracting := [0]
  lhsNonContracting := [0]
  rhsNonContracting := [1]
  lhsBatch := []
  rhsBatch := []
  wf := dot_S5000x384_S384x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg1) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S6000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S384x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x384 : Shape := ⟨2, ![600000, 384]⟩
abbrev S600000x256 : Shape := ⟨2, ![600000, 256]⟩
abbrev S1x256 : Shape := ⟨2, ![1, 256]⟩
abbrev S1x128 : Shape := ⟨2, ![1, 128]⟩
abbrev S50000x384 : Shape := ⟨2, ![50000, 384]⟩
abbrev S50000x256 : Shape := ⟨2, ![50000, 256]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S384x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x384, .f32⟩
  | .hbm, ⟨31, _⟩ => ⟨S600000x256, .f32⟩
  | .hbm, ⟨32, _⟩ => ⟨S1x256, .f32⟩
  | .hbm, ⟨33, _⟩ => ⟨S600000x256, .f32⟩
  | .hbm, ⟨34, _⟩ => ⟨S600000x256, .f32⟩
  | .hbm, ⟨35, _⟩ => ⟨S_, .f32⟩
  | .hbm, ⟨36, _⟩ => ⟨S600000x256, .f32⟩
  | .hbm, ⟨37, _⟩ => ⟨S600000x256, .f32⟩
  | .hbm, ⟨38, _⟩ => ⟨S600000x128, .f32⟩
  | .hbm, ⟨39, _⟩ => ⟨S1x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S50000x384, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x384_S384x256_S600000x256_1_0_0_1_n_n_wf : DotDims.WF S600000x384 S384x256 S600000x256 [1] [0] [0] [1] [] []
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1
  dot_S50000x384_S384x256_S50000x256_1_0_0_1_n_n_wf : DotDims.WF S50000x384 S384x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x256_S600000x256_1_0_0_1_n_n : DotDims S600000x384 S384x256 S600000x256 where
  lhsContracting := [1]
  rhsContracting := [0]
  lhsNonContracting := [0]
  rhsNonContracting := [1]
  lhsBatch := []
  rhsBatch := []
  wf := dot_S600000x384_S384x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The run of the idealized kernel program with its two results kept.

  @main is four segments: the host lines that wrap the edge indices and gather the sender and receiver rows, the edge
  perceptron's pallas_call, the host lines that sum the new edge rows into their sender and receiver nodes, and the
  node perceptron's pallas_call. Each segment maps the contents of the TensorCore's unscoped buffers at its entry to
  their contents at its exit (`W0` … `W4` of the frame module); at the return every unscoped buffer holds `W4`. The
  frame keeps of this only that the arguments are unchanged; here the two result buffers are kept as well:

      new_nodes (main_v21) ends at  W4 … main_v21,     new_edges (main_v14) ends at  W4 … main_v14.

  What those two contents are, as functions of the arguments, is read off the fold in the modules that import this one.
-/
import proofs.«106019_j75239237091740_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the two results end at the last boundary's
    contents and the arguments as launched. -/
theorem run_results : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Results

end
-- ==== Proof.LibConcatThree.lean ====
/-
  A reusable lemma: three matrices with the same number of rows and the same width laid side by side, read at an
  entry.

  The concatenation along axis 1 of three [M, a] arrays into an [M, K] array (K = a + a + a) is, at (p, j),

      the first piece  at (p, j)         when j < a,
      the second piece at (p, j - a)     when a ≤ j < 2a,
      the third piece  at (p, j - 2a)    otherwise.

  `cat3` is that function written out, with no side condition in its statement, so that a block of rows cut out of
  the three pieces and the three whole pieces can be compared entry by entry: row p of `cat3` only reads row p of each
  piece. Generic in M, a, K and in the element type.
-/
import Idealize.ShloMosaic.Lib.Pipeline.Value
import Idealize.ShloMosaic.Lib.ValueIdx

noncomputable section

namespace Cert.ConcatThree

open Idealize.ShloMosaic Idealize.ShloMosaic.ValueIdx

variable {α : Type} {M a K : ℕ}

/-- Three [M, a] pieces side by side as one function of (row, column). -/
def cat3 (hK : K = a + a + a) (x₁ x₂ x₃ : (⟨2, ![M, a]⟩ : Shape).Idx → α) : (⟨2, ![M, K]⟩ : Shape).Idx → α :=
  fun i =>
    if h₁ : (i 1).val < a then x₁ (ix2 (i 0) ⟨(i 1).val, h₁⟩)
    else if h₂ : (i 1).val < a + a then x₂ (ix2 (i 0) ⟨(i 1).val - a, by omega⟩)
    else x₃ (ix2 (i 0) ⟨(i 1).val - (a + a), by have := idx2_lt1 i; omega⟩)

/-- Row p of the three pieces side by side only reads row p of each piece: if two triples of pieces (possibly with
    different numbers of rows) agree on a row, so do their concatenations, column by column. -/
theorem cat3_row_congr {M' : ℕ} (hK : K = a + a + a) (x₁ x₂ x₃ : (⟨2, ![M, a]⟩ : Shape).Idx → α)
    (y₁ y₂ y₃ : (⟨2, ![M', a]⟩ : Shape).Idx → α) (p : Fin M) (p' : Fin M')
    (e₁ : ∀ k : Fin a, x₁ (ix2 p k) = y₁ (ix2 p' k)) (e₂ : ∀ k : Fin a, x₂ (ix2 p k) = y₂ (ix2 p' k))
    (e₃ : ∀ k : Fin a, x₃ (ix2 p k) = y₃ (ix2 p' k)) (j : Fin K) :
    cat3 hK x₁ x₂ x₃ (ix2 p j) = cat3 hK y₁ y₂ y₃ (ix2 p' j) := by
  unfold cat3
  show (if h₁ : j.val < a then x₁ (ix2 p ⟨j.val, h₁⟩)
      else if h₂ : j.val < a + a then x₂ (ix2 p ⟨j.val - a, _⟩) else x₃ (ix2 p ⟨j.val - (a + a), _⟩))
    = (if h₁ : j.val < a then y₁ (ix2 p' ⟨j.val, h₁⟩)
      else if h₂ : j.val < a + a then y₂ (ix2 p' ⟨j.val - a, _⟩) else y₃ (ix2 p' ⟨j.val - (a + a), _⟩))
  split
  · exact e₁ _
  · split
    · exact e₂ _
    · exact e₃ _

/-- The concatenation of three [M, a] pieces along axis 1 is `cat3` of them. -/
theorem concatenate_eq_cat3 (hK : K = a + a + a) (x₁ x₂ x₃ : (⟨2, ![M, a]⟩ : Shape).Idx → α)
    (h : Shape.Concatenates [⟨2, ![M, a]⟩, ⟨2, ![M, a]⟩, ⟨2, ![M, a]⟩] ⟨2, ![M, K]⟩ 1) :
    concatenate ⟨2, ![M, K]⟩ 1 [⟨⟨2, ![M, a]⟩, x₁⟩, ⟨⟨2, ![M, a]⟩, x₂⟩, ⟨⟨2, ![M, a]⟩, x₃⟩] h = cat3 hK x₁ x₂ x₃ := by
  funext i
  have hi := idx2_lt1 i
  unfold cat3
  split
  · next h₁ =>
    exact concatenate_apply_piece 1 [⟨⟨2, ![M, a]⟩, x₁⟩, ⟨⟨2, ![M, a]⟩, x₂⟩, ⟨⟨2, ![M, a]⟩, x₃⟩] h i 0 (by show 0 < 3; decide) ⟨2, ![M, a]⟩ x₁ rfl rfl 0 rfl (ix2 (i 0) ⟨(i 1).val, h₁⟩)
      (fun b hb => match b, hb with
        | ⟨0, _⟩, _ => rfl
        | ⟨1, _⟩, hb => absurd rfl hb)
      (by show 0 + (i 1).val = (i 1).val; omega)
  · next h₁ =>
    split
    · next h₂ =>
      exact concatenate_apply_piece 1 [⟨⟨2, ![M, a]⟩, x₁⟩, ⟨⟨2, ![M, a]⟩, x₂⟩, ⟨⟨2, ![M, a]⟩, x₃⟩] h i 1 (by show 1 < 3; decide) ⟨2, ![M, a]⟩ x₂ rfl rfl a rfl
        (ix2 (i 0) ⟨(i 1).val - a, by omega⟩)
        (fun b hb => match b, hb with
          | ⟨0, _⟩, _ => rfl
          | ⟨1, _⟩, hb => absurd rfl hb)
        (by show a + ((i 1).val - a) = (i 1).val; omega)
    · next h₂ =>
      exact concatenate_apply_piece 1 [⟨⟨2, ![M, a]⟩, x₁⟩, ⟨⟨2, ![M, a]⟩, x₂⟩, ⟨⟨2, ![M, a]⟩, x₃⟩] h i 2 (by show 2 < 3; decide) ⟨2, ![M, a]⟩ x₃ rfl rfl (a + a) rfl
        (ix2 (i 0) ⟨(i 1).val - (a + a), by omega⟩)
        (fun b hb => match b, hb with
          | ⟨0, _⟩, _ => rfl
          | ⟨1, _⟩, hb => absurd rfl hb)
        (by show a + a + ((i 1).val - (a + a)) = (i 1).val; omega)

end Cert.ConcatThree

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«106019_j75239237091740_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibTwoLayer.lean ====
/-
  A two-layer perceptron applied to every row of a matrix, read at an entry.

  For X : [M, K], W₁ : [K, H], b₁ : [H], W₂ : [H, D], b₂ : [D], over the extended reals,

      dense2 X W₁ b₁ W₂ b₂ [p, q] = Σ_{k < H} max( Σ_{j < K} X[p, j] · W₁[j, k] + b₁[k] , z ) · W₂[k, q] + b₂[q],

  where z is the value of the f32 word 0x00000000 (kept as the word: both spellings below clamp at that literal, so it is
  never evaluated). Two spellings of it are shown to be this function:

    * the host one — dot_general, the bias viewed as a row and repeated down the rows by two broadcast_in_dims, add,
      maximum with the splat of the scalar zero constant, and the same again without the maximum;
    * the matrix-unit one — operands narrowed to bf16 (the identity on extended reals), tpu.matmul into a zero
      accumulator, the bias cast to a row and spread by vector.broadcast, add, maximum with a splat scalar, and again.

  Row p of the result only reads row p of X (`dense2_row_congr`), which is what lets a block of rows be computed by
  itself. Generic in M, K, H, D.
-/
import proofs.«106019_j75239237091740_1_alg».proof.Proof.LibMatmulNN
import proofs.«106019_j75239237091740_1_alg».proof.Proof.LibDotNN
import proofs.«106019_j75239237091740_1_alg».proof.Proof.LibBroadcastRows
import proofs.«106019_j75239237091740_1_alg».proof.Proof.LibHostBroadcasts
import Idealize.ShloMosaic.Lib.ValueLayout
import Idealize.ShloMosaic.Lib.ValueIdx
import Idealize.ShloMosaic.PureOps.Ideal.Laws

noncomputable section

namespace Cert.TwoLayer

open Idealize.ShloMosaic Idealize.ShloMosaic.ValueIdx

variable {M K H D : ℕ}

/-- The two-layer map, entry by entry. -/
def dense2 (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) : FVec Ideal ⟨2, ![M, D]⟩ .f32 :=
  fun i => (∑ k : Fin H, max ((∑ j : Fin K, X (ix2 (i 0) j) * W₁ (ix2 j k)) + b₁ (ix1 k))
      (Ideal.ofBits .f32 0x00000000#32) * W₂ (ix2 k (i 1))) + b₂ (ix1 (i 1))

/-- The map at (p, q), with the coordinates named. -/
theorem dense2_apply (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) (p : Fin M) (q : Fin D) :
    dense2 X W₁ b₁ W₂ b₂ (ix2 p q)
      = (∑ k : Fin H, max ((∑ j : Fin K, X (ix2 p j) * W₁ (ix2 j k)) + b₁ (ix1 k))
          (Ideal.ofBits .f32 0x00000000#32) * W₂ (ix2 k q)) + b₂ (ix1 q) := rfl

/-- Row p of the result only reads row p of the input matrix: two input matrices (possibly with different numbers of
    rows) that agree on a row give the same output row. -/
theorem dense2_row_congr {M' : ℕ} (X : FVec Ideal ⟨2, ![M, K]⟩ .f32) (X' : FVec Ideal ⟨2, ![M', K]⟩ .f32)
    (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) (p : Fin M) (p' : Fin M')
    (e : ∀ j : Fin K, X (ix2 p j) = X' (ix2 p' j)) (q : Fin D) :
    dense2 X W₁ b₁ W₂ b₂ (ix2 p q) = dense2 X' W₁ b₁ W₂ b₂ (ix2 p' q) := by
  rw [dense2_apply, dense2_apply]
  simp only [e]

/-- The host spelling is the two-layer map. -/
theorem host_form (D₁ : DotDims ⟨2, ![M, K]⟩ ⟨2, ![K, H]⟩ ⟨2, ![M, H]⟩) (hD₁ : D₁ = DotDims.plain M K H)
    (D₂ : DotDims ⟨2, ![M, H]⟩ ⟨2, ![H, D]⟩ ⟨2, ![M, D]⟩) (hD₂ : D₂ = DotDims.plain M H D)
    (prec₁ prec₂ : Option ContractPrecision)
    (hu₁ : (⟨1, ![H]⟩ : Shape).BroadcastsInDim ⟨2, ![1, H]⟩ ![1])
    (hr₁ : (⟨2, ![1, H]⟩ : Shape).BroadcastsInDim ⟨2, ![M, H]⟩ ![0, 1])
    (hz : (⟨0, ![]⟩ : Shape).BroadcastsInDim ⟨2, ![M, H]⟩ ![])
    (hu₂ : (⟨1, ![D]⟩ : Shape).BroadcastsInDim ⟨2, ![1, D]⟩ ![1])
    (hr₂ : (⟨2, ![1, D]⟩ : Shape).BroadcastsInDim ⟨2, ![M, D]⟩ ![0, 1])
    (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) :
    addf (Host.dotGeneral D₂ prec₂
        (maximumf (addf (Host.dotGeneral D₁ prec₁ X W₁)
            (broadcastInDim ⟨2, ![M, H]⟩ ![0, 1] hr₁ (broadcastInDim ⟨2, ![1, H]⟩ ![1] hu₁ b₁)))
          (broadcastInDim ⟨2, ![M, H]⟩ ![] hz (constant (F := Ideal) ⟨0, ![]⟩ .f32 0x00000000#32))) W₂)
      (broadcastInDim ⟨2, ![M, D]⟩ ![0, 1] hr₂ (broadcastInDim ⟨2, ![1, D]⟩ ![1] hu₂ b₂))
    = dense2 X W₁ b₁ W₂ b₂ := by
  funext i
  obtain ⟨p, q, rfl⟩ : ∃ (p : Fin M) (q : Fin D), i = ix2 p q := ⟨i 0, i 1, eq_ix2 i⟩
  rw [dense2_apply, addf_apply]
  refine congrArg₂ (· + ·) ((DotNN.dotGeneral_apply D₂ hD₂ prec₂ _ W₂ p q).trans
    (Finset.sum_congr rfl fun k _ => congrArg (· * W₂ (ix2 k q)) ?_))
    ((BroadcastRows.row_apply _ hr₂ p q).trans (BroadcastRows.unit_apply b₂ hu₂ 0 q))
  rw [maximumf_apply, addf_apply]
  refine congrArg₂ max (congrArg₂ (· + ·) (DotNN.dotGeneral_apply D₁ hD₁ prec₁ X W₁ p k)
    ((BroadcastRows.row_apply _ hr₁ p k).trans (BroadcastRows.unit_apply b₁ hu₁ 0 k)))
    ((HostBroadcasts.scalar_apply ![] hz _ (ix2 p k)).trans rfl)

/-- The matrix-unit spelling is the two-layer map. -/
theorem unit_form (D₁ : DotDims ⟨2, ![M, K]⟩ ⟨2, ![K, H]⟩ ⟨2, ![M, H]⟩) (hD₁ : D₁ = DotDims.plain M K H)
    (D₂ : DotDims ⟨2, ![M, H]⟩ ⟨2, ![H, D]⟩ ⟨2, ![M, D]⟩) (hD₂ : D₂ = DotDims.plain M H D)
    (prec₁ prec₂ : Option ContractPrecision)
    (hc₁ : (⟨1, ![H]⟩ : Shape).ShapeCasts ⟨2, ![1, H]⟩) (hs₁ : (⟨2, ![1, H]⟩ : Shape).Broadcasts ⟨2, ![M, H]⟩)
    (hc₂ : (⟨1, ![D]⟩ : Shape).ShapeCasts ⟨2, ![1, D]⟩) (hs₂ : (⟨2, ![1, D]⟩ : Shape).Broadcasts ⟨2, ![M, D]⟩)
    (ht : FTy.bf16.bits < FTy.f32.bits)
    (X : FVec Ideal ⟨2, ![M, K]⟩ .f32) (W₁ : FVec Ideal ⟨2, ![K, H]⟩ .f32) (b₁ : FVec Ideal ⟨1, ![H]⟩ .f32)
    (W₂ : FVec Ideal ⟨2, ![H, D]⟩ .f32) (b₂ : FVec Ideal ⟨1, ![D]⟩ .f32) :
    addf (matmul D₂ prec₂
        (truncf .bf16 (maximumf (addf (matmul D₁ prec₁ (truncf .bf16 X ht) (truncf .bf16 W₁ ht)
              (constant (F := Ideal) ⟨2, ![M, H]⟩ .f32 0x00000000#32))
            (broadcastTo ⟨2, ![M, H]⟩ (shapeCast ⟨2, ![1, H]⟩ b₁ hc₁) hs₁))
          (broadcast ⟨2, ![M, H]⟩ (Scalar.ofBits (F := Ideal) .f32 0x00000000#32))) ht)
        (truncf .bf16 W₂ ht) (constant (F := Ideal) ⟨2, ![M, D]⟩ .f32 0x00000000#32))
      (broadcastTo ⟨2, ![M, D]⟩ (shapeCast ⟨2, ![1, D]⟩ b₂ hc₂) hs₂)
    = dense2 X W₁ b₁ W₂ b₂ := by
  funext i
  obtain ⟨p, q, rfl⟩ : ∃ (p : Fin M) (q : Fin D), i = ix2 p q := ⟨i 0, i 1, eq_ix2 i⟩
  rw [dense2_apply, addf_apply]
  refine congrArg₂ (· + ·) ((MatmulNN.matmul_zero_apply D₂ hD₂ prec₂ _ _ p q).trans
    (Finset.sum_congr rfl fun k _ => congrArg₂ (· * ·) ?_ rfl))
    ((broadcastTo_1b_ab_apply _ hs₂ p q).trans (shapeCast_a_1a_apply b₂ hc₂ 0 q))
  rw [truncf_apply, maximumf_apply, addf_apply]
  refine congrArg₂ max (congrArg₂ (· + ·) ((MatmulNN.matmul_zero_apply D₁ hD₁ prec₁ _ _ p k).trans rfl)
    ((broadcastTo_1b_ab_apply _ hs₁ p k).trans (shapeCast_a_1a_apply b₁ hc₁ 0 k))) rfl

end Cert.TwoLayer

end
-- ==== Proof.Perceptron.lean ====
/-
  The perceptron this graph network applies to every edge and to every node, as one function of whole arrays.

  A row's input is three 128-wide pieces side by side (384 columns: for an edge its own features, its sender's and its
  receiver's; for a node its own features and the two sums of its edges' new features); the hidden layer has 256 units
  and is clamped below at zero; the output has 128 columns:

      mlp3 x₁ x₂ x₃ W₁ b₁ W₂ b₂ [p, q] = Σ_k max( Σ_j [x₁ | x₂ | x₃][p, j] · W₁[j, k] + b₁[k], 0 ) · W₂[k, q] + b₂[q].

  Generic in the number of rows M, because the same function is computed on a block of rows (6000 edges, 5000 nodes)
  and on all of them (600000 edges, 50000 nodes): row p of the result reads row p of the three pieces and nothing else
  (`mlp3_row_congr`). The host spelling (concatenate, dot_general, broadcast bias, maximum, …) and the matrix-unit
  spelling (tpu.concatenate, bf16 operands, tpu.matmul into zeros, …) are both this function.
-/
import proofs.«106019_j75239237091740_1_alg».proof.Proof.LibConcatThree
import proofs.«106019_j75239237091740_1_alg».proof.Proof.LibTwoLayer

noncomputable section

namespace Cert.Perceptron

open Idealize.ShloMosaic Idealize.ShloMosaic.ValueIdx Cert.ConcatThree Cert.TwoLayer

variable {M : ℕ}

/-- The network's row map on M rows. -/
def mlp3 (x₁ x₂ x₃ : FVec Ideal ⟨2, ![M, 128]⟩ .f32) (W₁ : FVec Ideal ⟨2, ![384, 256]⟩ .f32)
    (b₁ : FVec Ideal ⟨1, ![256]⟩ .f32) (W₂ : FVec Ideal ⟨2, ![256, 128]⟩ .f32) (b₂ : FVec Ideal ⟨1, ![128]⟩ .f32) :
    FVec Ideal ⟨2, ![M, 128]⟩ .f32 :=
  dense2 (cat3 (K := 384) rfl x₁ x₂ x₃) W₁ b₁ W₂ b₂

/-- Output row p only reads row p of the three pieces: pieces (with possibly different numbers of rows) that agree on
    a row give the same output row. -/
theorem mlp3_row_congr {M' : ℕ} (x₁ x₂ x₃ : FVec Ideal ⟨2, ![M, 128]⟩ .f32) (y₁ y₂ y₃ : FVec Ideal ⟨2, ![M', 128]⟩ .f32)
    (W₁ : FVec Ideal ⟨2, ![384, 256]⟩ .f32) (b₁ : FVec Ideal ⟨1, ![256]⟩ .f32)
    (W₂ : FVec Ideal ⟨2, ![256, 128]⟩ .f32) (b₂ : FVec Ideal ⟨1, ![128]⟩ .f32) (p : Fin M) (p' : Fin M')
    (e₁ : ∀ k : Fin 128, x₁ (ix2 p k) = y₁ (ix2 p' k)) (e₂ : ∀ k : Fin 128, x₂ (ix2 p k) = y₂ (ix2 p' k))
    (e₃ : ∀ k : Fin 128, x₃ (ix2 p k) = y₃ (ix2 p' k)) (q : Fin 128) :
    mlp3 x₁ x₂ x₃ W₁ b₁ W₂ b₂ (ix2 p q) = mlp3 y₁ y₂ y₃ W₁ b₁ W₂ b₂ (ix2 p' q) :=
  dense2_row_congr _ _ W₁ b₁ W₂ b₂ p p' (fun j => cat3_row_congr rfl x₁ x₂ x₃ y₁ y₂ y₃ p p' e₁ e₂ e₃ j) q

/-- The host spelling of the row map. -/
theorem host_mlp3 (hc : Shape.Concatenates [⟨2, ![M, 128]⟩, ⟨2, ![M, 128]⟩, ⟨2, ![M, 128]⟩] ⟨2, ![M, 384]⟩ 1)
    (D₁ : DotDims ⟨2, ![M, 384]⟩ ⟨2, ![384, 256]⟩ ⟨2, ![M, 256]⟩) (hD₁ : D₁ = DotDims.plain M 384 256)
    (D₂ : DotDims ⟨2, ![M, 256]⟩ ⟨2, ![256, 128]⟩ ⟨2, ![M, 128]⟩) (hD₂ : D₂ = DotDims.plain M 256 128)
    (prec₁ prec₂ : Option ContractPrecision)
    (hu₁ : (⟨1, ![256]⟩ : Shape).BroadcastsInDim ⟨2, ![1, 256]⟩ ![1])
    (hr₁ : (⟨2, ![1, 256]⟩ : Shape).BroadcastsInDim ⟨2, ![M, 256]⟩ ![0, 1])
    (hz : (⟨0, ![]⟩ : Shape).BroadcastsInDim ⟨2, ![M, 256]⟩ ![])
    (hu₂ : (⟨1, ![128]⟩ : Shape).BroadcastsInDim ⟨2, ![1, 128]⟩ ![1])
    (hr₂ : (⟨2, ![1, 128]⟩ : Shape).BroadcastsInDim ⟨2, ![M, 128]⟩ ![0, 1])
    (x₁ x₂ x₃ : FVec Ideal ⟨2, ![M, 128]⟩ .f32) (W₁ : FVec Ideal ⟨2, ![384, 256]⟩ .f32)
    (b₁ : FVec Ideal ⟨1, ![256]⟩ .f32) (W₂ : FVec Ideal ⟨2, ![256, 128]⟩ .f32) (b₂ : FVec Ideal ⟨1, ![128]⟩ .f32) :
    addf (Host.dotGeneral D₂ prec₂
        (maximumf (addf (Host.dotGeneral D₁ prec₁
              (concatenate ⟨2, ![M, 384]⟩ 1 [⟨⟨2, ![M, 128]⟩, x₁⟩, ⟨⟨2, ![M, 128]⟩, x₂⟩, ⟨⟨2, ![M, 128]⟩, x₃⟩] hc) W₁)
            (broadcastInDim ⟨2, ![M, 256]⟩ ![0, 1] hr₁ (broadcastInDim ⟨2, ![1, 256]⟩ ![1] hu₁ b₁)))
          (broadcastInDim ⟨2, ![M, 256]⟩ ![] hz (constant (F := Ideal) ⟨0, ![]⟩ .f32 0x00000000#32))) W₂)
      (broadcastInDim ⟨2, ![M, 128]⟩ ![0, 1] hr₂ (broadcastInDim ⟨2, ![1, 128]⟩ ![1] hu₂ b₂))
    = mlp3 x₁ x₂ x₃ W₁ b₁ W₂ b₂ := by
  rw [concatenate_eq_cat3 (K := 384) rfl x₁ x₂ x₃ hc]
  exact host_form D₁ hD₁ D₂ hD₂ prec₁ prec₂ hu₁ hr₁ hz hu₂ hr₂ _ W₁ b₁ W₂ b₂

/-- The matrix-unit spelling of the row map (the second and third pieces pass through an identity shape cast first, as
    the kernel's text has them). -/
theorem unit_mlp3 (hc : Shape.Concatenates [⟨2, ![M, 128]⟩, ⟨2, ![M, 128]⟩, ⟨2, ![M, 128]⟩] ⟨2, ![M, 384]⟩ 1)
    (hi : (⟨2, ![M, 128]⟩ : Shape).ShapeCasts ⟨2, ![M, 128]⟩)
    (D₁ : DotDims ⟨2, ![M, 384]⟩ ⟨2, ![384, 256]⟩ ⟨2, ![M, 256]⟩) (hD₁ : D₁ = DotDims.plain M 384 256)
    (D₂ : DotDims ⟨2, ![M, 256]⟩ ⟨2, ![256, 128]⟩ ⟨2, ![M, 128]⟩) (hD₂ : D₂ = DotDims.plain M 256 128)
    (prec₁ prec₂ : Option ContractPrecision)
    (hc₁ : (⟨1, ![256]⟩ : Shape).ShapeCasts ⟨2, ![1, 256]⟩) (hs₁ : (⟨2, ![1, 256]⟩ : Shape).Broadcasts ⟨2, ![M, 256]⟩)
    (hc₂ : (⟨1, ![128]⟩ : Shape).ShapeCasts ⟨2, ![1, 128]⟩) (hs₂ : (⟨2, ![1, 128]⟩ : Shape).Broadcasts ⟨2, ![M, 128]⟩)
    (ht : FTy.bf16.bits < FTy.f32.bits)
    (x₁ x₂ x₃ : FVec Ideal ⟨2, ![M, 128]⟩ .f32) (W₁ : FVec Ideal ⟨2, ![384, 256]⟩ .f32)
    (b₁ : FVec Ideal ⟨1, ![256]⟩ .f32) (W₂ : FVec Ideal ⟨2, ![256, 128]⟩ .f32) (b₂ : FVec Ideal ⟨1, ![128]⟩ .f32) :
    addf (matmul D₂ prec₂
        (truncf .bf16 (maximumf (addf (matmul D₁ prec₁
                (truncf .bf16 (concatenate ⟨2, ![M, 384]⟩ 1 [⟨⟨2, ![M, 128]⟩, x₁⟩,
                    ⟨⟨2, ![M, 128]⟩, shapeCast ⟨2, ![M, 128]⟩ x₂ hi⟩, ⟨⟨2, ![M, 128]⟩, shapeCast ⟨2, ![M, 128]⟩ x₃ hi⟩] hc) ht)
                (truncf .bf16 W₁ ht) (constant (F := Ideal) ⟨2, ![M, 256]⟩ .f32 0x00000000#32))
            (broadcastTo ⟨2, ![M, 256]⟩ (shapeCast ⟨2, ![1, 256]⟩ b₁ hc₁) hs₁))
          (broadcast ⟨2, ![M, 256]⟩ (Scalar.ofBits (F := Ideal) .f32 0x00000000#32))) ht)
        (truncf .bf16 W₂ ht) (constant (F := Ideal) ⟨2, ![M, 128]⟩ .f32 0x00000000#32))
      (broadcastTo ⟨2, ![M, 128]⟩ (shapeCast ⟨2, ![1, 128]⟩ b₂ hc₂) hs₂)
    = mlp3 x₁ x₂ x₃ W₁ b₁ W₂ b₂ := by
  rw [shapeCast_self x₂ hi, shapeCast_self x₃ hi, concatenate_eq_cat3 (K := 384) rfl x₁ x₂ x₃ hc]
  exact unit_form D₁ hD₁ D₂ hD₂ prec₁ prec₂ hc₁ hs₁ hc₂ hs₂ ht _ W₁ b₁ W₂ b₂

end Cert.Perceptron

end
-- ==== Proof.EdgeArray.lean ====
/-
  The edge perceptron's pallas_call: what its output array holds when the region is left.

  The grid has 100 points; point t works on edge rows 6000·t … 6000·t + 5999. Its three row-block windows (the edges'
  own features, the gathered sender rows, the gathered receiver rows) fetch block t of their arrays, the four weight
  windows fetch their whole arrays at every point, and the output window writes block t back. The body is the network's
  row map on the 6000 rows of the block (`pay_eq`); since output row p of the row map reads row p of the three pieces
  only, what point t writes back is block t of the row map of the WHOLE arrays (`flushed_eq`). The 100 blocks tile the
  600000 rows (row r lies in block r / 6000), so the array ends holding the row map of the whole arrays (`final`).

  Everything is stated at arbitrary contents `V` of the TensorCore's buffers when the region is entered.
-/
import proofs.«106019_j75239237091740_1_alg».proof.Proof.Gen.KernelIdeal.Frame
import proofs.«106019_j75239237091740_1_alg».proof.Proof.Perceptron
import Idealize.ShloMosaic.Lib.Pipeline.Value

set_option maxRecDepth 16384

noncomputable section

namespace Cert.KernelIdeal.EdgeArray

open Cert.KernelIdeal Cert.KernelIdeal.Gen
open Idealize.ShloMosaic Idealize.ShloMosaic.TcCoe Idealize.ShloMosaic.ValueIdx Idealize.SL.Sem
open Idealize.ShloMosaic.Pipeline (Dat)
open Cert.Perceptron

/-- The body's arithmetic on a block of 6000 rows is the network's row map on those rows. -/
theorem pay_eq (v0 v1 v3 : Vec Ideal S6000x128 .f32) (v7 : Vec Ideal S384x256 .f32) (v10 : Vec Ideal S256 .f32)
    (v17 : Vec Ideal S256x128 .f32) (v20 : Vec Ideal S128 .f32) :
    k0_pay1 v0 v1 v3 v7 v10 v17 v20 = mlp3 (M := 6000) v0 v1 v3 v7 v10 v17 v20 := by
  unfold k0_pay1
  exact unit_mlp3 (M := 6000) concatenates_S6000x128_S6000x128_S6000x128_S6000x384_d1 shapeCasts_S6000x128_S6000x128
    dot_S6000x384_S384x256_S6000x256_1_0_0_1_n_n rfl dot_S6000x256_S256x128_S6000x128_1_0_0_1_n_n rfl none none
    shapeCasts_S256_S1x256 broadcasts_S1x256_S6000x256 shapeCasts_S128_S1x128 broadcasts_S1x128_S6000x128
    bitsLt_bf16_f32 v0 v1 v3 v7 v10 v17 v20

/-- A grid point's number is below the number of points. -/
theorem pt_lt (t : Fin cfg0.N) : t.val < 100 := lt_of_lt_of_eq t.isLt (show cfg0.N = 100 from N_0)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-block windows and the output window are at block (t, 0),
    the weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The row map of a block of 6000 rows that is rows 6000·T … of whole pieces, at a block entry, is the row map of the
    whole pieces at the corresponding entry of the array. -/
theorem block_rows (X₁ X₂ X₃ : FVec Ideal S600000x128 .f32) (x₁ x₂ x₃ : FVec Ideal S6000x128 .f32)
    (W₁ : FVec Ideal S384x256 .f32) (b₁ : FVec Ideal S256 .f32) (W₂ : FVec Ideal S256x128 .f32) (b₂ : FVec Ideal S128 .f32)
    (T : ℕ) (hT : T < 100)
    (e₁ : ∀ (p : Fin 6000) (k : Fin 128), x₁ (ix2 p k) = X₁ (ix2 (⟨T * 6000 + p.val, by omega⟩ : Fin 600000) k))
    (e₂ : ∀ (p : Fin 6000) (k : Fin 128), x₂ (ix2 p k) = X₂ (ix2 (⟨T * 6000 + p.val, by omega⟩ : Fin 600000) k))
    (e₃ : ∀ (p : Fin 6000) (k : Fin 128), x₃ (ix2 p k) = X₃ (ix2 (⟨T * 6000 + p.val, by omega⟩ : Fin 600000) k))
    (j : S6000x128.Idx) (i : S600000x128.Idx) (hi0 : (i 0).val = T * 6000 + (j 0).val) (hi1 : (i 1).val = (j 1).val) :
    mlp3 (M := 6000) x₁ x₂ x₃ W₁ b₁ W₂ b₂ j = mlp3 (M := 600000) X₁ X₂ X₃ W₁ b₁ W₂ b₂ i := by
  have hi : i = ix2 (⟨T * 6000 + (j 0).val, by have := idx2_lt0 j; omega⟩ : Fin 600000) (j 1) :=
    funext fun a => Fin.ext (by match a with | ⟨0, _⟩ => exact hi0 | ⟨1, _⟩ => exact hi1)
  rw [hi, eq_ix2 j]
  exact mlp3_row_congr x₁ x₂ x₃ X₁ X₂ X₃ W₁ b₁ W₂ b₂ (j 0) _ (e₁ (j 0)) (e₂ (j 0)) (e₃ (j 0)) (j 1)

section
variable (V : (c : Dev nD) → (b : Ref sig .tc) → Buf (Elt Ideal) ((c : Thread nD τ).loc b))

/-- A row-block window's block at point t is rows 6000·t … of its array. -/
theorem rows0 (c : Dev nD) (t : Fin cfg0.N) (p : Fin 6000) (k : Fin 128) :
    iblk0 V c 0 t (ix2 p k) = V c main_arg1 (ix2 (⟨t.val * 6000 + p.val, by have := pt_lt t; omega⟩ : Fin 600000) k) := by
  obtain ⟨e0, e1, -⟩ := idx_facts t
  show V c main_arg1 (((cfg0.win 0).blk t).view.emb (ix2 p k)) = _
  refine congrArg (V c main_arg1) (funext fun a => Fin.ext ?_)
  match a with
  | ⟨0, _⟩ => show win0_0.index t (0 : Fin 2) * 6000 + 1 * p.val = t.val * 6000 + p.val; rw [e0]; omega
  | ⟨1, _⟩ => show win0_0.index t (1 : Fin 2) * 128 + 1 * k.val = k.val; rw [e1]; omega
theorem rows1 (c : Dev nD) (t : Fin cfg0.N) (p : Fin 6000) (k : Fin 128) :
    iblk0 V c 1 t (ix2 p k) = V c main_v6 (ix2 (⟨t.val * 6000 + p.val, by have := pt_lt t; omega⟩ : Fin 600000) k) := by
  obtain ⟨-, -, e0, e1, -⟩ := idx_facts t
  show V c main_v6 (((cfg0.win 1).blk t).view.emb (ix2 p k)) = _
  refine congrArg (V c main_v6) (funext fun a => Fin.ext ?_)
  match a with
  | ⟨0, _⟩ => show win0_1.index t (0 : Fin 2) * 6000 + 1 * p.val = t.val * 6000 + p.val; rw [e0]; omega
  | ⟨1, _⟩ => show win0_1.index t (1 : Fin 2) * 128 + 1 * k.val = k.val; rw [e1]; omega
theorem rows2 (c : Dev nD) (t : Fin cfg0.N) (p : Fin 6000) (k : Fin 128) :
    iblk0 V c 2 t (ix2 p k) = V c main_v13 (ix2 (⟨t.val * 6000 + p.val, by have := pt_lt t; omega⟩ : Fin 600000) k) := by
  obtain ⟨-, -, -, -, e0, e1, -⟩ := idx_facts t
  show V c main_v13 (((cfg0.win 2).blk t).view.emb (ix2 p k)) = _
  refine congrArg (V c main_v13) (funext fun a => Fin.ext ?_)
  match a with
  | ⟨0, _⟩ => show win0_2.index t (0 : Fin 2) * 6000 + 1 * p.val = t.val * 6000 + p.val; rw [e0]; omega
  | ⟨1, _⟩ => show win0_2.index t (1 : Fin 2) * 128 + 1 * k.val = k.val; rw [e1]; omega

/-- A weight window's block at any point is its whole array. -/
theorem whole3 (c : Dev nD) (t : Fin cfg0.N) : iblk0 V c 3 t = V c main_arg4 := by
  obtain ⟨-, -, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 384 + 1 * (y 0).val = (y 0).val; rw [e0]; omega
  | ⟨1, _⟩ => show win0_3.index t (1 : Fin 2) * 256 + 1 * (y 1).val = (y 1).val; rw [e1]; omega
theorem whole4 (c : Dev nD) (t : Fin cfg0.N) : iblk0 V c 4 t = V c main_arg5 := by
  obtain ⟨-, -, -, -, -, -, -, -, e0, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 256 + 1 * (y 0).val = (y 0).val; rw [e0]; omega
theorem whole5 (c : Dev nD) (t : Fin cfg0.N) : iblk0 V c 5 t = V c main_arg6 := by
  obtain ⟨-, -, -, -, -, -, -, -, -, e0, e1, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega
theorem whole6 (c : Dev nD) (t : Fin cfg0.N) : iblk0 V c 6 t = V c main_arg7 := by
  obtain ⟨-, -, -, -, -, -, -, -, -, -, -, e0, -⟩ := idx_facts t
  funext y
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; rw [e0]; omega

/-- What the array ends holding: the network's row map of the region-entry contents of the seven input arrays. -/
abbrev edgeOut (c : Dev nD) : FVec Ideal S600000x128 .f32 :=
  mlp3 (M := 600000) (V c main_arg1) (V c main_v6) (V c main_v13) (V c main_arg4) (V c main_arg5) (V c main_arg6) (V c main_arg7)

/-- WHAT POINT t WRITES BACK is block t of the row map of the whole arrays. -/
theorem flushed_eq (c : Dev nD) (t : Fin cfg0.N) :
    (dat0 V c).flushed 7 t = ((cfg0.win 7).blk t).view.read (Elt Ideal) (edgeOut V c) := by
  show (cfg0.win 7).cut (grid0.coords t) ((dat0 V c).after 7 t) = _
  rw [after0_7]
  unfold out0_7
  rw [View.canon_unit_zero hz2]
  simp only [View.ld_unit_zero (S := S6000x128) hz2, View.ld_unit_zero (S := S384x256) hz2,
    View.ld_unit_zero (S := S256) hz1, View.ld_unit_zero (S := S256x128) hz2, View.ld_unit_zero (S := S128) hz1]
  rw [pay_eq, whole3 V c t, whole4 V c t, whole5 V c t, whole6 V c t]
  obtain ⟨-, -, -, -, -, -, -, -, -, -, -, -, e0, e1⟩ := idx_facts t
  funext j
  refine block_rows (V c main_arg1) (V c main_v6) (V c main_v13) (iblk0 V c 0 t) (iblk0 V c 1 t) (iblk0 V c 2 t)
    (V c main_arg4) (V c main_arg5) (V c main_arg6) (V c main_arg7) t.val (by have := pt_lt t; omega)
    (rows0 V c t) (rows1 V c t) (rows2 V c t) j (((cfg0.win 7).blk t).view.emb j) ?_ ?_
  · show win0_7.index t (0 : Fin 2) * 6000 + 1 * (j 0).val = t.val * 6000 + (j 0).val; rw [e0]; omega
  · show win0_7.index t (1 : Fin 2) * 128 + 1 * (j 1).val = (j 1).val; rw [e1]; omega

end

/-- An index of the array is in point t's block iff each coordinate is in the block's range on its axis. -/
theorem mem_blk (t : Fin cfg0.N) (i : S600000x128.Idx) :
    i ∈ ((cfg0.win 7).blk t).view.set ↔ ∀ a : Fin 2, win0_7.index t a * S6000x128.size a ≤ (i a).val
      ∧ (i a).val < win0_7.index t a * S6000x128.size a + S6000x128.size a := by
  show i ∈ ((View.whole main_v14).slice (win0_7.rect t)).set ↔ _
  rw [View.set_slice_whole, Rect.mem_set_unit]
  exact Iff.rfl

/-- The 100 blocks tile the 600000 rows: row r lies in the block of point r / 6000. -/
theorem cover (i : S600000x128.Idx) :
    ∃ t : Fin cfg0.N, (cfg0.win 7).flush t = true ∧ i ∈ ((cfg0.win 7).blk t).view.set := by
  have hi0 : (i 0).val < 600000 := idx2_lt0 i
  have hi1 : (i 1).val < 128 := idx2_lt1 i
  let t : Fin cfg0.N := ⟨(i 0).val / 6000, by show _ < grid0.N; rw [N_0]; omega⟩
  have ht : t.val = (i 0).val / 6000 := rfl
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 6000 ≤ (i 0).val ∧ (i 0).val < win0_7.index t (0 : Fin 2) * 6000 + 6000
    rw [e0, ht]; omega
  | ⟨1, _⟩ =>
    show win0_7.index t (1 : Fin 2) * 128 ≤ (i 1).val ∧ (i 1).val < win0_7.index t (1 : Fin 2) * 128 + 128
    rw [e1]; omega

/-- THE ARRAY when the region is left: the network's row map of the region-entry contents of the seven input arrays. -/
theorem final (V : (c : Dev nD) → (b : Ref sig .tc) → Buf (Elt Ideal) ((c : Thread nD τ).loc b)) (c : Dev nD) :
    (dat0 V c).arrAt 7 cfg0.N = edgeOut V c :=
  (dat0 V c).arrAt_eq_of_cover 7 (edgeOut V c) (fun t _ => flushed_eq V c t) cover

end Cert.KernelIdeal.EdgeArray

end
-- ==== Proof.NodeArray.lean ====
/-
  The node perceptron's pallas_call: what its output array holds when the region is left.

  The grid has 10 points; point t works on node rows 5000·t … 5000·t + 4999. Its three row-block windows (the nodes' own
  features and the two arrays of summed edge features) fetch block t of their arrays, the four weight windows fetch
  their whole arrays at every point, and the output window writes block t back. The body is the network's row map on
  the 5000 rows of the block (`pay_eq`); since output row p of the row map reads row p of the three pieces only, what
  point t writes back is block t of the row map of the WHOLE arrays (`flushed_eq`). The 10 blocks tile the 50000 rows
  (row r lies in block r / 5000), so the array ends holding the row map of the whole arrays (`final`).

  Everything is stated at arbitrary contents `V` of the TensorCore's buffers when the region is entered.
-/
import proofs.«106019_j75239237091740_1_alg».proof.Proof.Gen.KernelIdeal.Frame
import proofs.«106019_j75239237091740_1_alg».proof.Proof.Perceptron
import Idealize.ShloMosaic.Lib.Pipeline.Value

set_option maxRecDepth 16384

noncomputable section

namespace Cert.KernelIdeal.NodeArray

open Cert.KernelIdeal Cert.KernelIdeal.Gen
open Idealize.ShloMosaic Idealize.ShloMosaic.TcCoe Idealize.ShloMosaic.ValueIdx Idealize.SL.Sem
open Idealize.ShloMosaic.Pipeline (Dat)
open Cert.Perceptron

/-- The body's arithmetic on a block of 5000 rows is the network's row map on those rows. -/
theorem pay_eq (v0 v1 v3 : Vec Ideal S5000x128 .f32) (v7 : Vec Ideal S384x256 .f32) (v10 : Vec Ideal S256 .f32)
    (v17 : Vec Ideal S256x128 .f32) (v20 : Vec Ideal S128 .f32) :
    k1_pay1 v0 v1 v3 v7 v10 v17 v20 = mlp3 (M := 5000) v0 v1 v3 v7 v10 v17 v20 := by
  unfold k1_pay1
  exact unit_mlp3 (M := 5000) concatenates_S5000x128_S5000x128_S5000x128_S5000x384_d1 shapeCasts_S5000x128_S5000x128
    dot_S5000x384_S384x256_S5000x256_1_0_0_1_n_n rfl dot_S5000x256_S256x128_S5000x128_1_0_0_1_n_n rfl none none
    shapeCasts_S256_S1x256 broadcasts_S1x256_S5000x256 shapeCasts_S128_S1x128 broadcasts_S1x128_S5000x128
    bitsLt_bf16_f32 v0 v1 v3 v7 v10 v17 v20

/-- A grid point's number is below the number of points. -/
theorem pt_lt (t : Fin cfg1.N) : t.val < 10 := lt_of_lt_of_eq t.isLt (show cfg1.N = 10 from N_1)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-block windows and the output window are at block (t, 0),
    the weight windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The row map of a block of 5000 rows that is rows 5000·T … of whole pieces, at a block entry, is the row map of the
    whole pieces at the corresponding entry of the array. -/
theorem block_rows (X₁ X₂ X₃ : FVec Ideal S50000x128 .f32) (x₁ x₂ x₃ : FVec Ideal S5000x128 .f32)
    (W₁ : FVec Ideal S384x256 .f32) (b₁ : FVec Ideal S256 .f32) (W₂ : FVec Ideal S256x128 .f32) (b₂ : FVec Ideal S128 .f32)
    (T : ℕ) (hT : T < 10)
    (e₁ : ∀ (p : Fin 5000) (k : Fin 128), x₁ (ix2 p k) = X₁ (ix2 (⟨T * 5000 + p.val, by omega⟩ : Fin 50000) k))
    (e₂ : ∀ (p : Fin 5000) (k : Fin 128), x₂ (ix2 p k) = X₂ (ix2 (⟨T * 5000 + p.val, by omega⟩ : Fin 50000) k))
    (e₃ : ∀ (p : Fin 5000) (k : Fin 128), x₃ (ix2 p k) = X₃ (ix2 (⟨T * 5000 + p.val, by omega⟩ : Fin 50000) k))
    (j : S5000x128.Idx) (i : S50000x128.Idx) (hi0 : (i 0).val = T * 5000 + (j 0).val) (hi1 : (i 1).val = (j 1).val) :
    mlp3 (M := 5000) x₁ x₂ x₃ W₁ b₁ W₂ b₂ j = mlp3 (M := 50000) X₁ X₂ X₃ W₁ b₁ W₂ b₂ i := by
  have hi : i = ix2 (⟨T * 5000 + (j 0).val, by have := idx2_lt0 j; omega⟩ : Fin 50000) (j 1) :=
    funext fun a => Fin.ext (by match a with | ⟨0, _⟩ => exact hi0 | ⟨1, _⟩ => exact hi1)
  rw [hi, eq_ix2 j]
  exact mlp3_row_congr x₁ x₂ x₃ X₁ X₂ X₃ W₁ b₁ W₂ b₂ (j 0) _ (e₁ (j 0)) (e₂ (j 0)) (e₃ (j 0)) (j 1)

section
variable (V : (c : Dev nD) → (b : Ref sig .tc) → Buf (Elt Ideal) ((c : Thread nD τ).loc b))

/-- A row-block window's block at point t is rows 5000·t … of its array. -/
theorem rows0 (c : Dev nD) (t : Fin cfg1.N) (p : Fin 5000) (k : Fin 128) :
    iblk1 V c 0 t (ix2 p k) = V c main_arg0 (ix2 (⟨t.val * 5000 + p.val, by have := pt_lt t; omega⟩ : Fin 50000) k) := by
  obtain ⟨e0, e1, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega
theorem rows1 (c : Dev nD) (t : Fin cfg1.N) (p : Fin 5000) (k : Fin 128) :
    iblk1 V c 1 t (ix2 p k) = V c main_v17 (ix2 (⟨t.val * 5000 + p.val, by have := pt_lt t; omega⟩ : Fin 50000) k) := by
  obtain ⟨-, -, e0, e1, -⟩ := idx_facts t
  show V c main_v17 (((cfg1.win 1).blk t).view.emb (ix2 p k)) = _
  refine congrArg (V c main_v17) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega
theorem rows2 (c : Dev nD) (t : Fin cfg1.N) (p : Fin 5000) (k : Fin 128) :
    iblk1 V c 2 t (ix2 p k) = V c main_v20 (ix2 (⟨t.val * 5000 + p.val, by have := pt_lt t; omega⟩ : Fin 50000) k) := by
  obtain ⟨-, -, -, -, e0, e1, -⟩ := idx_facts t
  show V c main_v20 (((cfg1.win 2).blk t).view.emb (ix2 p k)) = _
  refine congrArg (V c main_v20) (funext fun a => Fin.ext ?_)
  match a with
  | ⟨0, _⟩ => show win1_2.index t (0 : Fin 2) * 5000 + 1 * p.val = t.val * 5000 + p.val; rw [e0]; omega
  | ⟨1, _⟩ => show win1_2.index t (1 : Fin 2) * 128 + 1 * k.val = k.val; rw [e1]; omega

/-- A weight window's block at any point is its whole array. -/
theorem whole3 (c : Dev nD) (t : Fin cfg1.N) : iblk1 V c 3 t = V c main_arg8 := by
  obtain ⟨-, -, -, -, -, -, e0, e1, -⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 2) * 384 + 1 * (y 0).val = (y 0).val; rw [e0]; omega
  | ⟨1, _⟩ => show win1_3.index t (1 : Fin 2) * 256 + 1 * (y 1).val = (y 1).val; rw [e1]; omega
theorem whole4 (c : Dev nD) (t : Fin cfg1.N) : iblk1 V c 4 t = V c main_arg9 := by
  obtain ⟨-, -, -, -, -, -, -, -, e0, -⟩ := idx_facts t
  funext y
  show V c main_arg9 (((cfg1.win 4).blk t).view.emb y) = V c main_arg9 y
  refine congrArg (V c main_arg9) (funext fun a => Fin.ext ?_)
  match a with
  | ⟨0, _⟩ => show win1_4.index t (0 : Fin 1) * 256 + 1 * (y 0).val = (y 0).val; rw [e0]; omega
theorem whole5 (c : Dev nD) (t : Fin cfg1.N) : iblk1 V c 5 t = V c main_arg10 := by
  obtain ⟨-, -, -, -, -, -, -, -, -, e0, e1, -⟩ := idx_facts t
  funext y
  show V c main_arg10 (((cfg1.win 5).blk t).view.emb y) = V c main_arg10 y
  refine congrArg (V c main_arg10) (funext fun a => Fin.ext ?_)
  match a with
  | ⟨0, _⟩ => show win1_5.index t (0 : Fin 2) * 256 + 1 * (y 0).val = (y 0).val; rw [e0]; omega
  | ⟨1, _⟩ => show win1_5.index t (1 : Fin 2) * 128 + 1 * (y 1).val = (y 1).val; rw [e1]; omega
theorem whole6 (c : Dev nD) (t : Fin cfg1.N) : iblk1 V c 6 t = V c main_arg11 := by
  obtain ⟨-, -, -, -, -, -, -, -, -, -, -, e0, -⟩ := idx_facts t
  funext y
  show V c main_arg11 (((cfg1.win 6).blk t).view.emb y) = V c main_arg11 y
  refine congrArg (V c main_arg11) (funext fun a => Fin.ext ?_)
  match a with
  | ⟨0, _⟩ => show win1_6.index t (0 : Fin 1) * 128 + 1 * (y 0).val = (y 0).val; rw [e0]; omega

/-- What the array ends holding: the network's row map of the region-entry contents of the seven input arrays. -/
abbrev nodeOut (c : Dev nD) : FVec Ideal S50000x128 .f32 :=
  mlp3 (M := 50000) (V c main_arg0) (V c main_v17) (V c main_v20) (V c main_arg8) (V c main_arg9) (V c main_arg10) (V c main_arg11)

/-- WHAT POINT t WRITES BACK is block t of the row map of the whole arrays. -/
theorem flushed_eq (c : Dev nD) (t : Fin cfg1.N) :
    (dat1 V c).flushed 7 t = ((cfg1.win 7).blk t).view.read (Elt Ideal) (nodeOut V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S384x256) hz2,
    View.ld_unit_zero (S := S256) hz1, View.ld_unit_zero (S := S256x128) hz2, View.ld_unit_zero (S := S128) hz1]
  rw [pay_eq, whole3 V c t, whole4 V c t, whole5 V c t, whole6 V c t]
  obtain ⟨-, -, -, -, -, -, -, -, -, -, -, -, e0, e1⟩ := idx_facts t
  funext j
  refine block_rows (V c main_arg0) (V c main_v17) (V c main_v20) (iblk1 V c 0 t) (iblk1 V c 1 t) (iblk1 V c 2 t)
    (V c main_arg8) (V c main_arg9) (V c main_arg10) (V c main_arg11) t.val (by have := pt_lt t; omega)
    (rows0 V c t) (rows1 V c t) (rows2 V c t) j (((cfg1.win 7).blk t).view.emb j) ?_ ?_
  · show win1_7.index t (0 : Fin 2) * 5000 + 1 * (j 0).val = t.val * 5000 + (j 0).val; rw [e0]; omega
  · show win1_7.index t (1 : Fin 2) * 128 + 1 * (j 1).val = (j 1).val; rw [e1]; omega

end

/-- An index of the array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v21).slice (win1_7.rect t)).set ↔ _
  rw [View.set_slice_whole, Rect.mem_set_unit]
  exact Iff.rfl

/-- The 10 blocks tile the 50000 rows: row r lies in the block of point r / 5000. -/
theorem cover (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  let t : Fin cfg1.N := ⟨(i 0).val / 5000, by show _ < grid1.N; rw [N_1]; omega⟩
  have ht : t.val = (i 0).val / 5000 := rfl
  obtain ⟨-, -, -, -, -, -, -, -, -, -, -, -, e0, e1⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- THE ARRAY when the region is left: the network's row map of the region-entry contents of the seven input arrays. -/
theorem final (V : (c : Dev nD) → (b : Ref sig .tc) → Buf (Elt Ideal) ((c : Thread nD τ).loc b)) (c : Dev nD) :
    (dat1 V c).arrAt 7 cfg1.N = nodeOut V c :=
  (dat1 V c).arrAt_eq_of_cover 7 (nodeOut V c) (fun t _ => flushed_eq V c t) cover

end Cert.KernelIdeal.NodeArray

end
-- ==== Proof.Network.lean ====
/-
  The graph network as one function of its twelve argument arrays, over the extended reals.

      sent      = node_feat[senders],   received = node_feat[receivers]                      (rows gathered per edge)
      new_edges = mlp3 edge_feat sent received  eW₁ eb₁ eW₂ eb₂                               (600000 rows)
      sent_agg  = Σ over edges sent by each node of new_edges,   recv_agg likewise            (rows summed per node)
      new_nodes = mlp3 node_feat sent_agg recv_agg  nW₁ nb₁ nW₂ nb₂                           (50000 rows)

  The two irregular steps are the host's own operations and are the same text in the kernel program and in the
  reference: the gather (with jnp's wrap of a negative index by the number of nodes in front of it) and the
  scatter-add into zeros. They are kept here as two functions, `gatherRows` and `segmentSum`, that no proof opens:
  both programs apply them to the same arrays. All the arithmetic is in `mlp3`.
-/
import proofs.«106019_j75239237091740_1_alg».proof.KernelIdeal
import proofs.«106019_j75239237091740_1_alg».proof.Proof.Gen.KernelIdeal
import proofs.«106019_j75239237091740_1_alg».proof.Proof.Perceptron

noncomputable section

namespace Cert.Network

open Cert.KernelIdeal Cert.KernelIdeal.Gen
open Idealize.ShloMosaic Cert.Perceptron

/-- `x[idx]` for a [600000] vector of row indices into a [50000, 128] array: a negative index is first moved up by
    50000, the result is made a column of start indices, and whole rows are gathered. -/
def gatherRows (x : FVec Ideal S50000x128 .f32) (idx : (⟨S600000, .i32⟩ : BufTy).Contents (Elt Ideal)) :
    FVec Ideal S600000x128 .f32 :=
  Host.gather gather_S50000x128_S600000x1_S600000x128_1_0_n_n_0_1_1128 x
    (broadcastInDim S600000x1 ![0] bcast_S600000_S600000x1_0
      (select (cmpi .slt idx (broadcastInDim S600000 ![] bcast_S_S600000 (constantI S_ 32 0#32)))
        (addi idx (broadcastInDim S600000 ![] bcast_S_S600000 (constantI S_ 32 50000#32))) idx))

/-- `segment_sum(u, idx, 50000)`: the rows of a [600000, 128] array added into a [50000, 128] array of zeros at the
    rows a [600000] vector of indices names. -/
def segmentSum (idx : (⟨S600000, .i32⟩ : BufTy).Contents (Elt Ideal)) (u : FVec Ideal S600000x128 .f32) :
    FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 idx) u

/-- The updated edge features. -/
def newEdges (nodeFeat : FVec Ideal S50000x128 .f32) (edgeFeat : FVec Ideal S600000x128 .f32)
    (senders receivers : (⟨S600000, .i32⟩ : BufTy).Contents (Elt Ideal))
    (eW₁ : FVec Ideal S384x256 .f32) (eb₁ : FVec Ideal S256 .f32) (eW₂ : FVec Ideal S256x128 .f32) (eb₂ : FVec Ideal S128 .f32) :
    FVec Ideal S600000x128 .f32 :=
  mlp3 (M := 600000) edgeFeat (gatherRows nodeFeat senders) (gatherRows nodeFeat receivers) eW₁ eb₁ eW₂ eb₂

/-- The updated node features, from the updated edge features. -/
def newNodes (nodeFeat : FVec Ideal S50000x128 .f32) (edges : FVec Ideal S600000x128 .f32)
    (senders receivers : (⟨S600000, .i32⟩ : BufTy).Contents (Elt Ideal))
    (nW₁ : FVec Ideal S384x256 .f32) (nb₁ : FVec Ideal S256 .f32) (nW₂ : FVec Ideal S256x128 .f32) (nb₂ : FVec Ideal S128 .f32) :
    FVec Ideal S50000x128 .f32 :=
  mlp3 (M := 50000) nodeFeat (segmentSum senders edges) (segmentSum receivers edges) nW₁ nb₁ nW₂ nb₂

end Cert.Network

end
-- ==== Proof.KernelValue.lean ====
/-
  The idealized kernel program's two results as functions of its arguments.

  The buffer contents at the segment boundaries are a fold from the launch memory (`W0` … `W4`). Read at the two result
  buffers:

    * before the edge region the host lines leave the arguments as launched and put `gatherRows node_feat senders` and
      `gatherRows node_feat receivers` in the two gathered arrays;
    * the edge region leaves its output array at the row map of its seven input arrays: `newEdges` of the arguments;
    * the host lines after it leave `segmentSum senders new_edges` and `segmentSum receivers new_edges` in the two
      aggregate arrays, and touch neither the arguments nor new_edges;
    * the node region leaves its output array at the row map of its seven input arrays: `newNodes` of the arguments
      and new_edges, and does not touch new_edges.
-/
import proofs.«106019_j75239237091740_1_alg».proof.Proof.KernelRun
import proofs.«106019_j75239237091740_1_alg».proof.Proof.EdgeArray
import proofs.«106019_j75239237091740_1_alg».proof.Proof.NodeArray
import proofs.«106019_j75239237091740_1_alg».proof.Proof.Network
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo
open Cert.Network Cert.Perceptron

variable (m : (ℓ : Loc nD τ sig) → Buf (Elt Ideal) ℓ) (ρ : Dev nD → PrngReg)

/-- The updated edge features of the launch arguments on core `c`. -/
abbrev edgesOf (c : Dev nD) : FVec Ideal S600000x128 .f32 :=
  newEdges (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The updated node features of the launch arguments on core `c`. -/
abbrev nodesOf (c : Dev nD) : FVec Ideal S50000x128 .f32 :=
  newNodes (m ((c : Thread nD τ).loc main_arg0)) (edgesOf m c) (m ((c : Thread nD τ).loc main_arg2)) (m ((c : Thread nD τ).loc main_arg3))
    (m ((c : Thread nD τ).loc main_arg8)) (m ((c : Thread nD τ).loc main_arg9)) (m ((c : Thread nD τ).loc main_arg10)) (m ((c : Thread nD τ).loc main_arg11))

/-! ## At the edge region's entry -/

theorem V1_arg1 (c : Dev nD) : V1 m ρ c main_arg1 = m ((c : Thread nD τ).loc main_arg1) := by
  show StableHlo.after hostOps0 (W0 m ρ c) (Proc.devRef .tc main_arg1) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg6 (c : Dev nD) : V1 m ρ c main_arg6 = m ((c : Thread nD τ).loc main_arg6) := by
  show StableHlo.after hostOps0 (W0 m ρ c) (Proc.devRef .tc main_arg6) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_v6 (c : Dev nD) : V1 m ρ c main_v6 = gatherRows (m ((c : Thread nD τ).loc main_arg0)) (m ((c : Thread nD τ).loc main_arg2)) := by
  show StableHlo.after hostOps0 (W0 m ρ c) (Proc.devRef .tc main_v6) = _
  after_results <;> rfl
theorem V1_v13 (c : Dev nD) : V1 m ρ c main_v13 = gatherRows (m ((c : Thread nD τ).loc main_arg0)) (m ((c : Thread nD τ).loc main_arg3)) := by
  show StableHlo.after hostOps0 (W0 m ρ c) (Proc.devRef .tc main_v13) = _
  after_results <;> rfl

/-! ## At the edge region's exit -/

/-- The new edge features. -/
theorem W2_v14 (c : Dev nD) : W2 m ρ c (Proc.devRef .tc main_v14) = edgesOf m c := by
  refine (W2_arr m ρ c 7).trans ((EdgeArray.final (V1 m ρ) c).trans ?_)
  show mlp3 (M := 600000) (V1 m ρ c main_arg1) (V1 m ρ c main_v6) (V1 m ρ c main_v13) (V1 m ρ c main_arg4)
    (V1 m ρ c main_arg5) (V1 m ρ c main_arg6) (V1 m ρ c main_arg7) = _
  rw [V1_arg1 m ρ c, V1_v6 m ρ c, V1_v13 m ρ c, V1_arg4 m ρ c, V1_arg5 m ρ c, V1_arg6 m ρ c, V1_arg7 m ρ c]
  rfl

/-! ## At the node region's entry -/

theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results <;> rfl
theorem V3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results <;> rfl
theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results <;> rfl
theorem V3_arg10 (c : Dev nD) : V3 m ρ c main_arg10 = m ((c : Thread nD τ).loc main_arg10) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results <;> rfl
theorem V3_arg11 (c : Dev nD) : V3 m ρ c main_arg11 = m ((c : Thread nD τ).loc main_arg11) := by
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results <;> rfl
/-- The index vectors are as launched when the scatter-adds read them. -/
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem V3_v17 (c : Dev nD) : V3 m ρ c main_v17 = segmentSum (m ((c : Thread nD τ).loc main_arg2)) (edgesOf m c) := by
  show StableHlo.after hostOps1 (W2 m ρ c) (Proc.devRef .tc main_v17) = _
  after_results
  rw [W2_v14 m ρ c, W2_arg2 m ρ c]
  rfl
theorem V3_v20 (c : Dev nD) : V3 m ρ c main_v20 = segmentSum (m ((c : Thread nD τ).loc main_arg3)) (edgesOf m c) := by
  show StableHlo.after hostOps1 (W2 m ρ c) (Proc.devRef .tc main_v20) = _
  after_results
  rw [W2_v14 m ρ c, W2_arg3 m ρ c]
  rfl

/-! ## At the return -/

/-- new_edges is not touched after the edge region. -/
theorem value_edges (c : Dev nD) : W4 m ρ c (Proc.devRef .tc main_v14) = edgesOf m c := by
  rw [W4_of_ne m ρ c main_v14 (by decide)]
  show StableHlo.after hostOps1 (W2 m ρ c) (Proc.devRef .tc main_v14) = _
  after_results
  exact W2_v14 m ρ c

/-- new_nodes is what the node region leaves. -/
theorem value_nodes (c : Dev nD) : W4 m ρ c (Proc.devRef .tc main_v21) = nodesOf m c := by
  refine (W4_arr m ρ c 7).trans ((NodeArray.final (V3 m ρ) c).trans ?_)
  show mlp3 (M := 50000) (V3 m ρ c main_arg0) (V3 m ρ c main_v17) (V3 m ρ c main_v20) (V3 m ρ c main_arg8)
    (V3 m ρ c main_arg9) (V3 m ρ c main_arg10) (V3 m ρ c main_arg11) = _
  rw [V3_arg0 m ρ c, V3_v17 m ρ c, V3_v20 m ρ c, V3_arg8 m ρ c, V3_arg9 m ρ c, V3_arg10 m ρ c, V3_arg11 m ρ c]
  rfl

/-- THE KERNEL PROGRAM'S RUN, READ: every weakly fair execution terminates, nothing faulting, with new_nodes and
    new_edges at the network's functions of the launch arguments and the arguments unchanged. -/
theorem run : θ_run defs (onTc (τ := τ) (main (F := Ideal))) ⟨m, fun _ => 0, ρ⟩ (fun r => ∀ c : Dev nD,
      r.2.mem ((c.tc : Thread nD τ).loc main_v21) = nodesOf m c
      ∧ r.2.mem ((c.tc : Thread nD τ).loc main_v14) = edgesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value_nodes m ρ c), (h c).2.1.trans (value_edges m ρ c), (h c).2.2⟩)
    (run_results m ρ)

end Cert.KernelIdeal.Results

end
-- ==== Proof.RefValue.lean ====
/-
  The reference program's two results as the network's functions of its arguments.

  The reference's run ends with each result at the composed term of its host operations. That term is, for the edges,
  the host spelling of the row map applied to edge_feat and the two gathered arrays, and for the nodes the host
  spelling of the row map applied to node_feat and the two scatter-added arrays of that edge term: `newEdges` and
  `newNodes` of the arguments.
-/
import proofs.«106019_j75239237091740_1_alg».proof.Proof.Gen.ReferenceIdeal.Run
import proofs.«106019_j75239237091740_1_alg».proof.Proof.Network

set_option maxRecDepth 16384

noncomputable section

namespace Cert.ReferenceIdeal.RefValue

open Cert.ReferenceIdeal Cert.ReferenceIdeal.Gen
open Idealize.ShloMosaic Idealize.ShloMosaic.TcCoe Idealize.SL.Sem
open Cert.Network Cert.Perceptron

/-- The host's perceptron lines on the 600000 edge rows are the row map. -/
theorem host_edges (x₁ x₂ x₃ : FVec Ideal S600000x128 .f32) (W₁ : FVec Ideal S384x256 .f32) (b₁ : FVec Ideal S256 .f32)
    (W₂ : FVec Ideal S256x128 .f32) (b₂ : FVec Ideal S128 .f32) :
    addf (Host.dotGeneral dot_S600000x256_S256x128_S600000x128_1_0_0_1_n_n none
        (maximumf (addf (Host.dotGeneral dot_S600000x384_S384x256_S600000x256_1_0_0_1_n_n none
              (concatenate S600000x384 1 [⟨S600000x128, x₁⟩, ⟨S600000x128, x₂⟩, ⟨S600000x128, x₃⟩]
                concatenates_S600000x128_S600000x128_S600000x128_S600000x384_d1) W₁)
            (broadcastInDim S600000x256 ![0, 1] bcast_S1x256_S600000x256_0_1 (broadcastInDim S1x256 ![1] bcast_S256_S1x256_1 b₁)))
          (broadcastInDim S600000x256 ![] bcast_S_S600000x256 (constant (F := Ideal) S_ .f32 0x00000000#32))) W₂)
      (broadcastInDim S600000x128 ![0, 1] bcast_S1x128_S600000x128_0_1 (broadcastInDim S1x128 ![1] bcast_S128_S1x128_1 b₂))
    = mlp3 (M := 600000) x₁ x₂ x₃ W₁ b₁ W₂ b₂ :=
  host_mlp3 (M := 600000) concatenates_S600000x128_S600000x128_S600000x128_S600000x384_d1
    dot_S600000x384_S384x256_S600000x256_1_0_0_1_n_n rfl dot_S600000x256_S256x128_S600000x128_1_0_0_1_n_n rfl none none
    bcast_S256_S1x256_1 bcast_S1x256_S600000x256_0_1 bcast_S_S600000x256 bcast_S128_S1x128_1 bcast_S1x128_S600000x128_0_1
    x₁ x₂ x₃ W₁ b₁ W₂ b₂

/-- The host's perceptron lines on the 50000 node rows are the row map. -/
theorem host_nodes (x₁ x₂ x₃ : FVec Ideal S50000x128 .f32) (W₁ : FVec Ideal S384x256 .f32) (b₁ : FVec Ideal S256 .f32)
    (W₂ : FVec Ideal S256x128 .f32) (b₂ : FVec Ideal S128 .f32) :
    addf (Host.dotGeneral dot_S50000x256_S256x128_S50000x128_1_0_0_1_n_n none
        (maximumf (addf (Host.dotGeneral dot_S50000x384_S384x256_S50000x256_1_0_0_1_n_n none
              (concatenate S50000x384 1 [⟨S50000x128, x₁⟩, ⟨S50000x128, x₂⟩, ⟨S50000x128, x₃⟩]
                concatenates_S50000x128_S50000x128_S50000x128_S50000x384_d1) W₁)
            (broadcastInDim S50000x256 ![0, 1] bcast_S1x256_S50000x256_0_1 (broadcastInDim S1x256 ![1] bcast_S256_S1x256_1 b₁)))
          (broadcastInDim S50000x256 ![] bcast_S_S50000x256 (constant (F := Ideal) S_ .f32 0x00000000#32))) W₂)
      (broadcastInDim S50000x128 ![0, 1] bcast_S1x128_S50000x128_0_1 (broadcastInDim S1x128 ![1] bcast_S128_S1x128_1 b₂))
    = mlp3 (M := 50000) x₁ x₂ x₃ W₁ b₁ W₂ b₂ :=
  host_mlp3 (M := 50000) concatenates_S50000x128_S50000x128_S50000x128_S50000x384_d1
    dot_S50000x384_S384x256_S50000x256_1_0_0_1_n_n rfl dot_S50000x256_S256x128_S50000x128_1_0_0_1_n_n rfl none none
    bcast_S256_S1x256_1 bcast_S1x256_S50000x256_0_1 bcast_S_S50000x256 bcast_S128_S1x128_1 bcast_S1x128_S50000x128_0_1
    x₁ x₂ x₃ W₁ b₁ W₂ b₂

variable (m : (ℓ : Loc nD τ sig) → Buf (Elt Ideal) ℓ)

/-- The updated edge features of the launch arguments on core `c`. -/
abbrev edgesOf (c : Dev nD) : FVec Ideal S600000x128 .f32 :=
  newEdges (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The updated node features of the launch arguments on core `c`. -/
abbrev nodesOf (c : Dev nD) : FVec Ideal S50000x128 .f32 :=
  newNodes (m ((c : Thread nD τ).loc main_arg0)) (edgesOf m c) (m ((c : Thread nD τ).loc main_arg2)) (m ((c : Thread nD τ).loc main_arg3))
    (m ((c : Thread nD τ).loc main_arg8)) (m ((c : Thread nD τ).loc main_arg9)) (m ((c : Thread nD τ).loc main_arg10)) (m ((c : Thread nD τ).loc main_arg11))

/-- The reference's new_nodes term is the network's function of the arguments. -/
theorem nodes_eq (c : Dev nD) : Value.res_main_v39 m c = nodesOf m c := by
  unfold Value.res_main_v39
  rw [host_edges, host_nodes]
  rfl

/-- THE REFERENCE'S RUN, READ: every weakly fair execution terminates, nothing faulting, with new_nodes and new_edges
    at the network's functions of the launch arguments and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v39) = nodesOf m c
      ∧ r.2.mem ((c.tc : Thread nD τ).loc main_v23) = edgesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (nodes_eq m c),
      (h c).2.1.trans ((host_edges _ _ _ _ _ _ _).trans rfl), (h c).2.2⟩)
    (Value.run (F := Ideal) m ρ)

end Cert.ReferenceIdeal.RefValue

end
-- ==== Proof.lean ====
/-
  A graph network's message-passing step on the TPU, against its jnp reference.

  Both programs compute, from node features [50000, 128], edge features [600000, 128], two index vectors (the sender
  and the receiver of each edge) and the weights of two perceptrons,

      new_edges = mlp(edge_feat | node_feat[senders] | node_feat[receivers]),
      new_nodes = mlp(node_feat | segment_sum(new_edges, senders) | segment_sum(new_edges, receivers)),
      mlp(x) = max(x · W₁ + b₁, 0) · W₂ + b₂   (384 → 256 → 128),

  and return (new_nodes, new_edges). The kernel program does the two gathers and the two segment sums with the same
  host operations as the reference, and runs each perceptron as a pallas_call over blocks of rows (100 blocks of 6000
  edges, 10 blocks of 5000 nodes), with bf16 operands into the matrix unit; the reference runs each perceptron as two
  dot_generals on the whole arrays. Over the extended reals a change of float format is the identity and a matrix
  product into zeros is the host's product, and a row of the perceptron's output depends on that row of its input
  only, so a block of rows of the kernel's result is the block of the reference's. No law beyond that is used, and
  none that needs the inputs finite.

  The three frames: the kernel programs' are the generated frame certificates; the reference's is its generated run
  with the results dropped. The idealization rewrote nothing, so there is nothing to preserve. The value claim: the
  kernel program's run with its results named (Proof/KernelRun, Proof/KernelValue over Proof/EdgeArray and
  Proof/NodeArray) and the reference's generated run (Proof/RefValue) both end at `Cert.Network.newNodes` and
  `Cert.Network.newEdges` of their arguments, which agree.
-/
import proofs.«106019_j75239237091740_1_alg».proof.Defs
import proofs.«106019_j75239237091740_1_alg».proof.Proof.Gen.Kernel
import proofs.«106019_j75239237091740_1_alg».proof.Proof.Gen.Kernel.Frame
import proofs.«106019_j75239237091740_1_alg».proof.Proof.Gen.KernelIdeal
import proofs.«106019_j75239237091740_1_alg».proof.Proof.Gen.KernelIdeal.Frame
import proofs.«106019_j75239237091740_1_alg».proof.Proof.Gen.ReferenceIdeal
import proofs.«106019_j75239237091740_1_alg».proof.Proof.Gen.Pre_finite_inputs
import proofs.«106019_j75239237091740_1_alg».proof.Proof.Gen.ReferenceIdeal.Run
import proofs.«106019_j75239237091740_1_alg».proof.Proof.KernelValue
import proofs.«106019_j75239237091740_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end at the network's two functions of their arguments; the arguments agree. -/
theorem algebraic : Cert.algebraic_KernelIdeal_ReferenceIdeal := by
  intro m ρ m' ρ' _ hagree
  refine ⟨fun c => Cert.KernelIdeal.Results.nodesOf m c, fun c => Cert.KernelIdeal.Results.edgesOf m c,
    Cert.KernelIdeal.Results.run m ρ, ?_⟩
  refine (θ_run Cert.ReferenceIdeal.defs _ _).mono (fun r h c => ⟨(h c).1.trans ?_, (h c).2.1.trans ?_, (h c).2.2⟩)
    (Cert.ReferenceIdeal.RefValue.run m' ρ')
  · obtain ⟨h0, h1, h2, h3, h4, h5, h6, h7, h8, h9, h10, h11⟩ := hagree c
    show Cert.ReferenceIdeal.RefValue.nodesOf m' c = Cert.KernelIdeal.Results.nodesOf m c
    unfold Cert.ReferenceIdeal.RefValue.nodesOf Cert.ReferenceIdeal.RefValue.edgesOf
    rw [h0, h1, h2, h3, h4, h5, h6, h7, h8, h9, h10, h11]
  · obtain ⟨h0, h1, h2, h3, h4, h5, h6, h7, h8, h9, h10, h11⟩ := hagree c
    show Cert.ReferenceIdeal.RefValue.edgesOf m' c = Cert.KernelIdeal.Results.edgesOf m c
    unfold Cert.ReferenceIdeal.RefValue.edgesOf
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
